-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S2048x64 : Shape := ⟨2, ![2048, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 10
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .f32⟩
  | .hbm, ⟨8, _⟩ => ⟨S2x16x2048x64, .f32⟩
  | .hbm, ⟨9, _⟩ => ⟨S2x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | .local _ .vmem, ⟨10, _⟩ => ⟨S2048x64, .bf16⟩
  | .local _ .vmem, ⟨11, _⟩ => ⟨S2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S32x2048x64_S2x16x2048x64 : S32x2048x64.ShapeCasts S2x16x2048x64
  shapeCasts_S32x2048x2048_S2x16x2048x2048 : S32x2048x2048.ShapeCasts S2x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S2x16x2048x1, .f32⟩
  | .hbm, ⟨14, _⟩ => ⟨S_, .f32⟩
  | .hbm, ⟨15, _⟩ => ⟨S2x16x2048x1, .f32⟩
  | .hbm, ⟨16, _⟩ => ⟨S2x16x2048x1, .f32⟩
  | .hbm, ⟨17, _⟩ => ⟨S2x16x2048x2048, .f32⟩
  | .hbm, ⟨18, _⟩ => ⟨S2x16x2048x2048, .f32⟩
  | .hbm, ⟨19, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Pieces.lean ====
/-
  What one run of the kernel body leaves in its buffers, in each of its two cases.

  At the first query block of a head the body first copies the head's key and value blocks into its two kept buffers
  and then computes from them; at every later query block of the same head it computes from what the buffers already
  hold. In both cases each output block is written by one store that covers it, so the block ends holding that store's
  value: the weights (or outputs) computed from the query block and the two kept buffers. In the first case the kept
  buffers are read back after the copy, so the values are those of the copied blocks.
-/
import proofs.«114776_j47691316855186_2_alg».proof.Proof.Gen.KernelIdeal.Frame
import Idealize.ShloMosaic.Lib.Pipeline.Value
import Idealize.ShloMosaic.Lib.Tactic

noncomputable section

namespace Cert.QuadAttn

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first query block of a head: the kept buffers are written, then read -/

/-- The kept key buffer ends holding the head's key block with its unit axis dropped. -/
theorem keptK_first (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (arg8 : Memref sig .tc .vmem S2048x64 .bf16) (harg8 : arg8.IsWhole) (hc0 : cond0_0 i) (x0 : Vec F S1x512x64 .f32) (x1 : Vec F S1x2048x64 .f32) (x2 : Vec F S1x2048x64 .f32) :
    sout0_A_0 c i arg2 harg2 arg3 harg3 arg4 harg4 arg5 harg5 arg6 harg6 arg7 harg7 arg8 harg8 hc0 x0 x1 x2 = k0_pay1 x1 := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readCov_unit_zero (S := S2048x64) _ hz2, View.readAt_eq_ld, harg2.read_unread, harg3.read_unread,
    harg4.read_unread, View.ld_unit_zero (S := S1x512x64) hz3, View.ld_unit_zero (S := S1x2048x64) hz3,
    View.ld_unit_zero (S := S2048x64) hz2]

/-- The kept value buffer ends holding the head's value block with its unit axis dropped. -/
theorem keptV_first (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (arg8 : Memref sig .tc .vmem S2048x64 .bf16) (harg8 : arg8.IsWhole) (hc0 : cond0_0 i) (x0 : Vec F S1x512x64 .f32) (x1 : Vec F S1x2048x64 .f32) (x2 : Vec F S1x2048x64 .f32) :
    sout0_A_1 c i arg2 harg2 arg3 harg3 arg4 harg4 arg5 harg5 arg6 harg6 arg7 harg7 arg8 harg8 hc0 x0 x1 x2 = k0_pay2 x2 := by
  unfold sout0_A_1
  rw [View.read_writes_eq_canon _ _ _ (scover0_A_1 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readCov_unit_zero (S := S2048x64) _ hz2, View.readAt_eq_ld, harg2.read_unread, harg3.read_unread,
    harg4.read_unread, View.ld_unit_zero (S := S1x512x64) hz3, View.ld_unit_zero (S := S1x2048x64) hz3,
    View.ld_unit_zero (S := S2048x64) hz2]

/-- The outputs block: computed from the query block and the two blocks just copied. -/
theorem outs_first (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (arg8 : Memref sig .tc .vmem S2048x64 .bf16) (harg8 : arg8.IsWhole) (hc0 : cond0_0 i) (x0 : Vec F S1x512x64 .f32) (x1 : Vec F S1x2048x64 .f32) (x2 : Vec F S1x2048x64 .f32) :
    out0_A_3 c i arg2 harg2 arg3 harg3 arg4 harg4 arg5 harg5 arg6 harg6 arg7 harg7 arg8 harg8 hc0 x0 x1 x2 = k0_pay5 x0 (k0_pay1 x1) (k0_pay2 x2) := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero hz3]
  simp only [View.readCov_unit_zero (S := S2048x64) _ hz2, View.readAt_eq_ld, harg2.read_unread, harg3.read_unread,
    harg4.read_unread, View.ld_unit_zero (S := S1x512x64) hz3, View.ld_unit_zero (S := S1x2048x64) hz3,
    View.ld_unit_zero (S := S2048x64) hz2]

/-- The weights block: computed from the query block and the key block just copied. -/
theorem weights_first (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (arg8 : Memref sig .tc .vmem S2048x64 .bf16) (harg8 : arg8.IsWhole) (hc0 : cond0_0 i) (x0 : Vec F S1x512x64 .f32) (x1 : Vec F S1x2048x64 .f32) (x2 : Vec F S1x2048x64 .f32) :
    out0_A_4 c i arg2 harg2 arg3 harg3 arg4 harg4 arg5 harg5 arg6 harg6 arg7 harg7 arg8 harg8 hc0 x0 x1 x2 = k0_pay4 x0 (k0_pay1 x1) := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_unit_zero hz3]
  simp only [View.readCov_unit_zero (S := S2048x64) _ hz2, View.readAt_eq_ld, harg2.read_unread, harg3.read_unread,
    harg4.read_unread, View.ld_unit_zero (S := S1x512x64) hz3, View.ld_unit_zero (S := S1x2048x64) hz3,
    View.ld_unit_zero (S := S2048x64) hz2]

/-! ## A later query block of the same head: the kept buffers are only read -/

theorem outs_later (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (arg8 : Memref sig .tc .vmem S2048x64 .bf16) (harg8 : arg8.IsWhole) (hc0 : ¬cond0_0 i) (x0 : Vec F S1x512x64 .f32) (x1 : Vec F S1x2048x64 .f32) (x2 : Vec F S1x2048x64 .f32) (xs0 xs1 : Vec F S2048x64 .bf16) :
    out0_B_3 c i arg2 harg2 arg3 harg3 arg4 harg4 arg5 harg5 arg6 harg6 arg7 harg7 arg8 harg8 hc0 x0 x1 x2 xs0 xs1 = k0_pay5 x0 xs0 xs1 := by
  unfold out0_B_3
  rw [View.read_writes_eq_canon _ _ _ (cover0_B_3 c i arg2 harg2 arg3 harg3 arg4 harg4 arg5 harg5 arg6 harg6 arg7 harg7 arg8 harg8 hc0 x0 x1 x2 xs0 xs1)]
  unfold kernelRun0_B
  dsimp only
  rw [View.canon_unit_zero hz3]
  simp only [View.readAt_eq_ld, harg2.read_unread, harg7.read_unread, harg8.read_unread,
    View.ld_unit_zero (S := S1x512x64) hz3, View.ld_unit_zero (S := S2048x64) hz2]

theorem weights_later (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S1x512x2048 .f32) (harg6 : arg6.IsWhole) (arg7 : Memref sig .tc .vmem S2048x64 .bf16) (harg7 : arg7.IsWhole) (arg8 : Memref sig .tc .vmem S2048x64 .bf16) (harg8 : arg8.IsWhole) (hc0 : ¬cond0_0 i) (x0 : Vec F S1x512x64 .f32) (x1 : Vec F S1x2048x64 .f32) (x2 : Vec F S1x2048x64 .f32) (xs0 xs1 : Vec F S2048x64 .bf16) :
    out0_B_4 c i arg2 harg2 arg3 harg3 arg4 harg4 arg5 harg5 arg6 harg6 arg7 harg7 arg8 harg8 hc0 x0 x1 x2 xs0 xs1 = k0_pay4 x0 xs0 := by
  unfold out0_B_4
  rw [View.read_writes_eq_canon _ _ _ (cover0_B_4 c i arg2 harg2 arg3 harg3 arg4 harg4 arg5 harg5 arg6 harg6 arg7 harg7 arg8 harg8 hc0 x0 x1 x2 xs0 xs1)]
  unfold kernelRun0_B
  dsimp only
  rw [View.canon_unit_zero hz3]
  simp only [View.readAt_eq_ld, harg2.read_unread, harg7.read_unread, harg8.read_unread,
    View.ld_unit_zero (S := S1x512x64) hz3, View.ld_unit_zero (S := S2048x64) hz2]

end Cert.QuadAttn

end
-- ==== Proof.Points.lean ====
/-
  The kernel's run over its grid of 32 heads by 4 query blocks, point by point.

  Point t works on head t / 4 and on query rows (t % 4) · 512 … (t % 4) · 512 + 511 of it. The key and value windows
  show the whole head at every point; the query and the two output windows show the point's 512 rows. The two kept
  buffers are written at the head's first point and only read at its other three, so after every point they hold the
  head's key and value blocks (by induction along the points: a later point of a head inherits them from the point
  before, which is a point of the same head). Hence at every point the stored outputs are the step's values computed
  from the point's query block and the head's keys and values.
-/
import proofs.«114776_j47691316855186_2_alg».proof.Proof.Pieces
import Idealize.ShloMosaic.Lib.ValueIdx

noncomputable section

namespace Cert.QuadAttn

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The printed index maps, decided over the grid: every window's block index on its first axis is the head t / 4; the
    query and output windows' on the second axis is the query block t % 4; every other block index is zero. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0) :=
  (by decide +kernel : ∀ t : Fin grid0.N, _)

/-- The head a point works on, and its query block. -/
theorem head_lt (n : ℕ) (h : n < cfg0.N) : n / 4 < 32 := by
  have hN : cfg0.N = 128 := N_0
  omega

abbrev headOf (t : Fin cfg0.N) : Fin 32 := ⟨t.val / 4, head_lt t.val t.isLt⟩
abbrev qblkOf (t : Fin cfg0.N) : Fin 4 := ⟨t.val % 4, Nat.mod_lt _ (by decide)⟩

/-- Head `g` of a `[32, 2048, 64]` array, as a `[1, 2048, 64]` block. -/
def headBlk {α : Type} (X : S32x2048x64.Idx → α) (g : Fin 32) : S1x2048x64.Idx → α :=
  fun y => X (ix3 g ⟨(y 1).val, (y 1).isLt⟩ ⟨(y 2).val, (y 2).isLt⟩)

theorem qrow_lt (b : Fin 4) (r : ℕ) (hr : r < 512) : b.val * 512 + r < 2048 := by
  have := b.isLt
  omega

/-- Query block `b` of head `g` of a `[32, 2048, 64]` array, as a `[1, 512, 64]` block. -/
def queryBlk {α : Type} (X : S32x2048x64.Idx → α) (g : Fin 32) (b : Fin 4) : S1x512x64.Idx → α :=
  fun y => X (ix3 g ⟨b.val * 512 + (y 1).val, qrow_lt b _ (y 1).isLt⟩ ⟨(y 2).val, (y 2).isLt⟩)

/-- The key window's block at point t is head t / 4 of the key array. -/
theorem iblk1_eq (c : Dev nD) (t : Fin cfg0.N) :
    (iblk m c 1 t : Vec F S1x2048x64 .f32) = headBlk (V m c main_v1) (headOf t) := by
  obtain ⟨-, ⟨e0, e1, e2⟩, -, -, -⟩ := idx_facts t
  funext y
  unfold iblk headBlk
  rw [View.read_apply]
  show V m c main_v1 _ = V m c main_v1 _
  congr 1
  funext a
  apply Fin.ext
  match a with
  | ⟨0, _⟩ =>
    show win0_1.index t (0 : Fin 3) * 1 + 1 * (y 0).val = t.val / 4
    have hy : (y 0).val < 1 := (y 0).isLt
    omega
  | ⟨1, _⟩ =>
    show win0_1.index t (1 : Fin 3) * 2048 + 1 * (y 1).val = (y 1).val
    omega
  | ⟨2, _⟩ =>
    show win0_1.index t (2 : Fin 3) * 64 + 1 * (y 2).val = (y 2).val
    omega

/-- The value window's block at point t is head t / 4 of the value array. -/
theorem iblk2_eq (c : Dev nD) (t : Fin cfg0.N) :
    (iblk m c 2 t : Vec F S1x2048x64 .f32) = headBlk (V m c main_v2) (headOf t) := by
  obtain ⟨-, -, ⟨e0, e1, e2⟩, -, -⟩ := idx_facts t
  funext y
  unfold iblk headBlk
  rw [View.read_apply]
  show V m c main_v2 _ = V m c main_v2 _
  congr 1
  funext a
  apply Fin.ext
  match a with
  | ⟨0, _⟩ =>
    show win0_2.index t (0 : Fin 3) * 1 + 1 * (y 0).val = t.val / 4
    have hy : (y 0).val < 1 := (y 0).isLt
    omega
  | ⟨1, _⟩ =>
    show win0_2.index t (1 : Fin 3) * 2048 + 1 * (y 1).val = (y 1).val
    omega
  | ⟨2, _⟩ =>
    show win0_2.index t (2 : Fin 3) * 64 + 1 * (y 2).val = (y 2).val
    omega

/-- The query window's block at point t is query block t % 4 of head t / 4 of the query array. -/
theorem iblk0_eq (c : Dev nD) (t : Fin cfg0.N) :
    (iblk m c 0 t : Vec F S1x512x64 .f32) = queryBlk (V m c main_v0) (headOf t) (qblkOf t) := by
  obtain ⟨⟨e0, e1, e2⟩, -, -, -, -⟩ := idx_facts t
  funext y
  unfold iblk queryBlk
  rw [View.read_apply]
  show V m c main_v0 _ = V m c main_v0 _
  congr 1
  funext a
  apply Fin.ext
  match a with
  | ⟨0, _⟩ =>
    show win0_0.index t (0 : Fin 3) * 1 + 1 * (y 0).val = t.val / 4
    have hy : (y 0).val < 1 := (y 0).isLt
    omega
  | ⟨1, _⟩ =>
    show win0_0.index t (1 : Fin 3) * 512 + 1 * (y 1).val = t.val % 4 * 512 + (y 1).val
    omega
  | ⟨2, _⟩ =>
    show win0_0.index t (2 : Fin 3) * 64 + 1 * (y 2).val = (y 2).val
    omega

/-- What the kept buffers hold while the kernel is on head `g`: the head's key and value blocks, unit axis dropped. -/
def keptK (c : Dev nD) (g : Fin 32) : Vec F S2048x64 .bf16 := k0_pay1 (headBlk (V m c main_v1) g)
def keptV (c : Dev nD) (g : Fin 32) : Vec F S2048x64 .bf16 := k0_pay2 (headBlk (V m c main_v2) g)

/-- At a head's first point the kept buffers are written from the head's blocks. -/
theorem kept_first (c : Dev nD) (t : Fin cfg0.N) (h0 : t.val % 4 = 0) :
    (outsAt0 m c t.val t.isLt).2.2.1 = keptK m c (headOf t) ∧ (outsAt0 m c t.val t.isLt).2.2.2 = keptV m c (headOf t) := by
  rw [outsAt0_A m c t h0]
  dsimp only
  exact ⟨(keptK_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)).trans
      (congrArg k0_pay1 (iblk1_eq m c t)),
    (keptV_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)).trans
      (congrArg k0_pay2 (iblk2_eq m c t))⟩

/-- After every point the kept buffers hold the point's head. -/
theorem kept_after (c : Dev nD) : ∀ (n : ℕ) (h : n < cfg0.N),
    (outsAt0 m c n h).2.2.1 = keptK m c ⟨n / 4, head_lt n h⟩ ∧ (outsAt0 m c n h).2.2.2 = keptV m c ⟨n / 4, head_lt n h⟩
  | 0, h => kept_first m c ⟨0, h⟩ rfl
  | n + 1, h => by
    by_cases h0 : (n + 1) % 4 = 0
    · exact kept_first m c ⟨n + 1, h⟩ h0
    · have ih := kept_after c n (Nat.lt_of_succ_lt h)
      have hB : ¬(⟨n + 1, h⟩ : Fin cfg0.N).val % 4 = 0 := h0
      have e : (⟨(n + 1) / 4, head_lt (n + 1) h⟩ : Fin 32) = ⟨n / 4, head_lt n (Nat.lt_of_succ_lt h)⟩ :=
        Fin.ext (by show (n + 1) / 4 = n / 4; omega)
      rw [outsAt0_B m c ⟨n + 1, h⟩ hB, e]
      unfold sout0_B_0 sout0_B_1
      exact ih

/-- A point that is not its head's first shares the head with the point before. -/
theorem kept_before (c : Dev nD) (t : Fin cfg0.N) (h0 : ¬t.val % 4 = 0) :
    (outsAt0 m c (t.val - 1) (Nat.lt_of_le_of_lt (Nat.sub_le _ _) t.isLt)).2.2.1 = keptK m c (headOf t)
    ∧ (outsAt0 m c (t.val - 1) (Nat.lt_of_le_of_lt (Nat.sub_le _ _) t.isLt)).2.2.2 = keptV m c (headOf t) := by
  have e : (⟨(t.val - 1) / 4, head_lt (t.val - 1) (Nat.lt_of_le_of_lt (Nat.sub_le _ _) t.isLt)⟩ : Fin 32) = headOf t :=
    Fin.ext (by show (t.val - 1) / 4 = t.val / 4; omega)
  rw [← e]
  exact kept_after m c (t.val - 1) _

/-- At every point the outputs block is the step's outputs from the point's query block and its head's buffers. -/
theorem outs_at (c : Dev nD) (t : Fin cfg0.N) :
    (outsAt0 m c t.val t.isLt).1 = k0_pay5 (iblk m c 0 t) (keptK m c (headOf t)) (keptV m c (headOf t)) := by
  by_cases h0 : t.val % 4 = 0
  · rw [outsAt0_A m c t h0]
    dsimp only
    refine (outs_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)).trans ?_
    unfold keptK keptV
    rw [iblk1_eq m c t, iblk2_eq m c t]
  · obtain ⟨hk, hv⟩ := kept_before m c t h0
    rw [outsAt0_B m c t h0]
    dsimp only
    refine (outs_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2.2.1
      (outsAt0 m c (t.val - 1) (Nat.lt_of_le_of_lt (Nat.sub_le _ _) t.isLt)).2.2.2).trans ?_
    rw [hk, hv]

/-- At every point the weights block is the step's weights from the point's query block and its head's key buffer. -/
theorem weights_at (c : Dev nD) (t : Fin cfg0.N) :
    (outsAt0 m c t.val t.isLt).2.1 = k0_pay4 (iblk m c 0 t) (keptK m c (headOf t)) := by
  by_cases h0 : t.val % 4 = 0
  · rw [outsAt0_A m c t h0]
    dsimp only
    refine (weights_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)).trans ?_
    unfold keptK
    rw [iblk1_eq m c t]
  · obtain ⟨hk, hv⟩ := kept_before m c t h0
    rw [outsAt0_B m c t h0]
    dsimp only
    refine (weights_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2.2.1
      (outsAt0 m c (t.val - 1) (Nat.lt_of_le_of_lt (Nat.sub_le _ _) t.isLt)).2.2.2).trans ?_
    rw [hk]

end Cert.QuadAttn

end
-- ==== Proof.HeadSpec.lean ====
/-
  Quadratic-kernel attention for one query row of one head, over the extended reals.

  A head has key and value matrices k, v of 2048 positions by 64 features; a query row is a vector q of 64 features.
  Its score against key position j is s[j] = Σ_d q[d] · k[j, d]; the weight numerator is n[j] = (s[j] · 1/8 + 3)², a
  square, hence never negative; the row's normaliser is the sum of its numerators shifted by a small positive constant
  ε, hence positive and in particular not zero. The weights are n[j] over that normaliser, and the output is
  o[d] = Σ_j w[j] · v[j, d].

  One program multiplies the numerator by the reciprocal of the normaliser; the other divides by the normaliser and
  starts its row sum from an explicit zero. Because the normaliser is not zero the product with the reciprocal is the
  quotient, at infinite entries too, so both spell the same weights and the same output.
-/
import Idealize.ShloMosaic.Lib.IdealHost
import Idealize.ShloMosaic.Lib.ValueIdx

open scoped BigOperators

noncomputable section

namespace Cert.QuadAttn

open Idealize.ShloMosaic Idealize.ShloMosaic.ValueIdx

/-- A query row: 64 features. -/
abbrev Row : Type := Fin 64 → EReal
/-- One head's key or value matrix: 2048 positions, 64 features. -/
abbrev Mat : Type := Fin 2048 → Fin 64 → EReal

/-- The score scale 1/8, the shift 3 and the normaliser's ε, as the words both programs spell. -/
abbrev scaleW : EReal := Ideal.ofBits .f32 0x3E000000#32
abbrev shiftW : EReal := Ideal.ofBits .f32 0x40400000#32
abbrev epsW : EReal := Ideal.ofBits .f32 0x358637BD#32

/-- ε is a positive real (it is 8796093 · 2⁻⁴³). -/
theorem epsW_pos : 0 < epsW := by
  have h : epsW = ((8796093 * (2 : ℝ) ^ (-43 : ℤ) : ℝ) : EReal) := by
    simp [epsW, Ideal.ofBits, Ideal.ieee, -EReal.coe_mul]
  rw [h]
  exact EReal.coe_pos.mpr (by positivity)

/-- The score of the query row against key position `j`. -/
def score (q : Row) (k : Mat) (j : Fin 2048) : EReal := ∑ d : Fin 64, q d * k j d

/-- The weight numerator: the scaled, shifted score, squared. -/
def num (q : Row) (k : Mat) (j : Fin 2048) : EReal :=
  (score q k j * scaleW + shiftW) * (score q k j * scaleW + shiftW)

/-- A square of an extended real is never negative. -/
theorem mul_self_nonneg' (x : EReal) : 0 ≤ x * x := by
  induction x using EReal.rec with
  | bot => simp
  | coe r => rw [← EReal.coe_mul]; exact EReal.coe_nonneg.mpr (mul_self_nonneg r)
  | top => simp

theorem num_nonneg (q : Row) (k : Mat) (j : Fin 2048) : 0 ≤ num q k j := mul_self_nonneg' _

/-- The row's sum of numerators. -/
def rowSum (q : Row) (k : Mat) : EReal := ∑ j : Fin 2048, num q k j

theorem rowSum_nonneg (q : Row) (k : Mat) : 0 ≤ rowSum q k :=
  Finset.sum_nonneg fun j _ => num_nonneg q k j

/-- The normaliser, a sum of squares plus ε, is not zero. -/
theorem den_ne_zero (q : Row) (k : Mat) : rowSum q k + epsW ≠ 0 := by
  have h : (0 : EReal) < rowSum q k + epsW :=
    lt_of_lt_of_le epsW_pos (le_add_of_nonneg_left (rowSum_nonneg q k))
  exact ne_of_gt h

/-- The weights as a product with the normaliser's reciprocal. -/
def weightMul (q : Row) (k : Mat) (j : Fin 2048) : EReal :=
  num q k j * Ideal.div (Ideal.ofBits .f32 0x3F800000#32) (rowSum q k + epsW)

/-- The weights as a quotient, the row sum started from an explicit zero. -/
def weightDiv (q : Row) (k : Mat) (j : Fin 2048) : EReal :=
  Ideal.div (num q k j) ((Ideal.ofBits .f32 0x00000000#32 + rowSum q k) + epsW)

/-- The two spellings of the weights agree. -/
theorem weightMul_eq_weightDiv (q : Row) (k : Mat) (j : Fin 2048) : weightMul q k j = weightDiv q k j := by
  unfold weightMul weightDiv
  rw [Ideal.ofBits_one_f32, Ideal.ofBits_zero_f32, zero_add, Ideal.mul_one_div (den_ne_zero q k)]

/-- The output of each spelling: the weights applied to v. -/
def outMul (q : Row) (k v : Mat) (d : Fin 64) : EReal := ∑ j : Fin 2048, weightMul q k j * v j d
def outDiv (q : Row) (k v : Mat) (d : Fin 64) : EReal := ∑ j : Fin 2048, weightDiv q k j * v j d

theorem outMul_eq_outDiv (q : Row) (k v : Mat) (d : Fin 64) : outMul q k v d = outDiv q k v d := by
  unfold outMul outDiv
  exact Finset.sum_congr rfl fun j _ => by rw [weightMul_eq_weightDiv]

/-! ## The two results over all batches and heads -/

/-- The shape of q, k, v and of the outputs, and the shape of the weights. -/
abbrev Arg4 : Shape := ⟨4, ![2, 16, 2048, 64]⟩
abbrev Wts4 : Shape := ⟨4, ![2, 16, 2048, 2048]⟩

/-- The query row at position `r` of head `h` of batch `b`, and that head's matrix. -/
def argRow (X : Arg4.Idx → EReal) (b : Fin 2) (h : Fin 16) (r : Fin 2048) : Row := fun d => X (ix4 b h r d)
def argMat (X : Arg4.Idx → EReal) (b : Fin 2) (h : Fin 16) : Mat := fun j d => X (ix4 b h j d)

/-- The weights: entry (b, h, r, j) is key j's weight for query row r of head h of batch b. -/
def weights4 (Q K : Arg4.Idx → EReal) : Wts4.Idx → EReal := fun i =>
  weightDiv (argRow Q ⟨(i 0).val, (i 0).isLt⟩ ⟨(i 1).val, (i 1).isLt⟩ ⟨(i 2).val, (i 2).isLt⟩)
    (argMat K ⟨(i 0).val, (i 0).isLt⟩ ⟨(i 1).val, (i 1).isLt⟩) ⟨(i 3).val, (i 3).isLt⟩

/-- The outputs: entry (b, h, r, d) is feature d of the output for that query row. -/
def outs4 (Q K Vv : Arg4.Idx → EReal) : Arg4.Idx → EReal := fun i =>
  outDiv (argRow Q ⟨(i 0).val, (i 0).isLt⟩ ⟨(i 1).val, (i 1).isLt⟩ ⟨(i 2).val, (i 2).isLt⟩)
    (argMat K ⟨(i 0).val, (i 0).isLt⟩ ⟨(i 1).val, (i 1).isLt⟩)
    (argMat Vv ⟨(i 0).val, (i 0).isLt⟩ ⟨(i 1).val, (i 1).isLt⟩) ⟨(i 3).val, (i 3).isLt⟩

theorem weights4_apply (Q K : Arg4.Idx → EReal) (b : Fin 2) (h : Fin 16) (r j : Fin 2048) :
    weights4 Q K (ix4 b h r j) = weightDiv (argRow Q b h r) (argMat K b h) j := rfl

theorem outs4_apply (Q K Vv : Arg4.Idx → EReal) (b : Fin 2) (h : Fin 16) (r : Fin 2048) (d : Fin 64) :
    outs4 Q K Vv (ix4 b h r d) = outDiv (argRow Q b h r) (argMat K b h) (argMat Vv b h) d := rfl

/-- Every index of a rank-four array is its four coordinates. -/
theorem forall_ix4 {n0 n1 n2 n3 : ℕ} {P : (⟨4, ![n0, n1, n2, n3]⟩ : Shape).Idx → Prop}
    (h : ∀ (a : Fin n0) (b : Fin n1) (c : Fin n2) (d : Fin n3), P (ix4 a b c d))
    (i : (⟨4, ![n0, n1, n2, n3]⟩ : Shape).Idx) : P i := by
  rw [eq_ix4 i]
  exact h _ _ _ _

end Cert.QuadAttn

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«114776_j47691316855186_2_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.LibMatmulNT.lean ====
/-
  A matrix product against a transposed right operand, read at one entry, over the extended reals.

  A product of an [A, K] matrix by a [B, K] matrix whose dimension numbers contract the second axis of both operands,
  accumulated into the zero matrix, has at entry (r, j) the value Σ_k lhs[r, k] · rhs[j, k]: row r of the left operand
  against row j of the right one.  Exact arithmetic leaves neither rounding nor a chunk order in it.  The plain product
  (the right operand contracted on its first axis) is `Cert.LibMatmul.plain_matmul_zero_apply`.
-/
import Idealize.ShloMosaic.PureOps.Ideal.Laws
import Idealize.ShloMosaic.Lib.ValueIdx

noncomputable section

namespace Cert.LibMatmulNT

open Idealize.ShloMosaic Idealize.ShloMosaic.ValueIdx

/-- Entry (r, j) of a product into a zero accumulator that contracts both operands' second axes is the sum over that
    axis of the left operand's row r against the right operand's row j. -/
theorem transposedRhs_matmul_zero_apply {A K B : Nat} {φ₁ φ₂ : FTy} (prec : Option ContractPrecision)
    (lhs : FVec Ideal ⟨2, ![A, K]⟩ φ₁) (rhs : FVec Ideal ⟨2, ![B, K]⟩ φ₂) (r : Fin A) (j : Fin B) :
    FloatOps.matmul (DotDims.transposedRhs A K B) prec lhs rhs (constant (F := Ideal) ⟨2, ![A, B]⟩ .f32 0x00000000#32) (ix2 r j)
      = ∑ k : Fin K, lhs (ix2 r k) * rhs (ix2 j k) := by
  rw [Ideal.matmul_constant_zero_apply, ← Equiv.sum_comp (contrEquiv1 (DotDims.transposedRhs A K B) K rfl rfl).symm]
  refine Finset.sum_congr rfl fun k _ => ?_
  have hk := contrEquiv1_symm_val (DotDims.transposedRhs A K B) K rfl rfl k
  have el : (DotDims.transposedRhs A K B).lhsIdx (ix2 r j) ((contrEquiv1 (DotDims.transposedRhs A K B) K rfl rfl).symm k) = ix2 r k :=
    funext fun a => Fin.ext (by
      match a with
      | ⟨0, _⟩ => rfl
      | ⟨1, _⟩ => exact ((DotDims.transposedRhs A K B).lhsIdx_val_of_single rfl (ix2 r j) _).trans hk)
  have er : (DotDims.transposedRhs A K B).rhsIdx (ix2 r j) ((contrEquiv1 (DotDims.transposedRhs A K B) K rfl rfl).symm k) = ix2 j k :=
    funext fun a => Fin.ext (by
      match a with
      | ⟨0, _⟩ => rfl
      | ⟨1, _⟩ => exact ((DotDims.transposedRhs A K B).rhsIdx_val_of_single rfl (ix2 r j) _).trans hk)
  rw [el, er]

end Cert.LibMatmulNT

end
-- ==== Proof.Payloads.lean ====
/-
  What one grid step of the kernel computes, read at an entry, over the extended reals.

  A step holds a block of 512 query rows (as a `[1, 512, 64]` array) and two `[2048, 64]` buffers with the head's keys
  and values. It stores the block of weights, whose entry (r, j) is the weight of key j for the block's row r, and the
  block of outputs, whose entry (r, d) is that row's weights applied to the values. A change of float format is the
  identity here, the product into a zero accumulator is the plain sum over the contracted axis, and the lane sum is the
  plain sum over the row; so the stored values are the row-wise functions of the specification with the normaliser's
  reciprocal multiplied in.
-/
import proofs.«114776_j47691316855186_2_alg».proof.Proof.Gen.KernelIdeal.Skeleton
import proofs.«114776_j47691316855186_2_alg».proof.Proof.HeadSpec
import proofs.«114776_j47691316855186_2_alg».proof.Proof.LibRowSums
import proofs.«114776_j47691316855186_2_alg».proof.Proof.LibMatmul
import proofs.«114776_j47691316855186_2_alg».proof.Proof.LibMatmulNT
import Idealize.ShloMosaic.Lib.ValueLayout
import Idealize.ShloMosaic.Lib.Pipeline.Value

open scoped BigOperators

noncomputable section

namespace Cert.QuadAttn

open Idealize.ShloMosaic Idealize.ShloMosaic.ValueIdx Cert.KernelIdeal Cert.KernelIdeal.Gen

/-- Row `r` of a `[1, 512, 64]` block of queries. -/
def blockRow (x0 : FVec Ideal S1x512x64 .f32) (r : Fin 512) : Row := fun d => x0 (ix3 (0 : Fin 1) r d)

/-- A `[2048, 64]` buffer as a head's matrix. -/
def matOf (s : FVec Ideal S2048x64 .bf16) : Mat := fun j d => s (ix2 j d)

/-- The buffer of keys (or values) a step keeps: the `[1, 2048, 64]` block with its unit axis dropped. -/
theorem pay1_apply (x1 : FVec Ideal S1x2048x64 .f32) (j : Fin 2048) (d : Fin 64) :
    k0_pay1 (F := Ideal) x1 (ix2 j d) = x1 (ix3 (0 : Fin 1) j d) := by
  unfold k0_pay1
  rw [shapeCast_self]
  exact shapeCast_1ab_ab_apply x1 _ j d

theorem pay2_apply (x2 : FVec Ideal S1x2048x64 .f32) (j : Fin 2048) (d : Fin 64) :
    k0_pay2 (F := Ideal) x2 (ix2 j d) = x2 (ix3 (0 : Fin 1) j d) := by
  unfold k0_pay2
  rw [shapeCast_self]
  exact shapeCast_1ab_ab_apply x2 _ j d

/-- The block of weight numerators, as the kernel spells it. -/
def numBlk (x0 : FVec Ideal S1x512x64 .f32) (s0 : FVec Ideal S2048x64 .bf16) : FVec Ideal S512x2048 .f32 :=
  mulf
    (addf (mulf (matmul dot_S512x64_S2048x64_S512x2048_1_1_0_0_n_n none
        (truncf .bf16 (shapeCast S512x64 x0 shapeCasts_S1x512x64_S512x64) bitsLt_bf16_f32) s0
        (constant S512x2048 .f32 0x00000000#32)) (broadcast S512x2048 (Scalar.ofBits .f32 0x3E000000#32)))
      (broadcast S512x2048 (Scalar.ofBits .f32 0x40400000#32)))
    (addf (mulf (matmul dot_S512x64_S2048x64_S512x2048_1_1_0_0_n_n none
        (truncf .bf16 (shapeCast S512x64 x0 shapeCasts_S1x512x64_S512x64) bitsLt_bf16_f32) s0
        (constant S512x2048 .f32 0x00000000#32)) (broadcast S512x2048 (Scalar.ofBits .f32 0x3E000000#32)))
      (broadcast S512x2048 (Scalar.ofBits .f32 0x40400000#32)))

/-- Entry (r, j) of the score product: the block's row r against key j. -/
theorem scoreBlk_apply (x0 : FVec Ideal S1x512x64 .f32) (s0 : FVec Ideal S2048x64 .bf16) (r : Fin 512) (j : Fin 2048) :
    matmul dot_S512x64_S2048x64_S512x2048_1_1_0_0_n_n none
        (truncf .bf16 (shapeCast S512x64 x0 shapeCasts_S1x512x64_S512x64) bitsLt_bf16_f32) s0
        (constant S512x2048 .f32 0x00000000#32) (ix2 r j)
      = score (blockRow x0 r) (matOf s0) j := by
  refine (Cert.LibMatmulNT.transposedRhs_matmul_zero_apply (A := 512) (K := 64) (B := 2048) none
    (truncf .bf16 (shapeCast S512x64 x0 shapeCasts_S1x512x64_S512x64) bitsLt_bf16_f32) s0 r j).trans ?_
  unfold score blockRow matOf
  refine Finset.sum_congr rfl fun d _ => ?_
  refine congrArg (· * s0 (ix2 j d)) ?_
  exact shapeCast_1ab_ab_apply x0 _ r d

/-- Entry (r, j) of the numerator block. -/
theorem numBlk_apply (x0 : FVec Ideal S1x512x64 .f32) (s0 : FVec Ideal S2048x64 .bf16) (r : Fin 512) (j : Fin 2048) :
    numBlk x0 s0 (ix2 r j) = num (blockRow x0 r) (matOf s0) j := by
  unfold numBlk num
  show (_ * _ + _) * (_ * _ + _) = _
  rw [scoreBlk_apply]
  rfl

/-- The weights block is the numerator block times the broadcast reciprocal of the shifted row sums. -/
theorem pay3_eq (x0 : FVec Ideal S1x512x64 .f32) (s0 : FVec Ideal S2048x64 .bf16) :
    k0_pay3 (F := Ideal) x0 s0
      = mulf (numBlk x0 s0) (broadcastTo S512x2048
          (divf (broadcast S512x1 (Scalar.ofBits .f32 0x3F800000#32))
            (addf (shapeCast S512x1 (multiReduction .add [1] S512 (numBlk x0 s0) 0x00000000#32 reduces_S512x2048_S512 (.inl rfl) rfl) shapeCasts_S512_S512x1)
              (broadcast S512x1 (Scalar.ofBits .f32 0x358637BD#32))))
          broadcasts_S512x1_S512x2048) := rfl

/-- Entry (r, j) of the weights block: key j's weight for the block's row r. -/
theorem pay3_apply (x0 : FVec Ideal S1x512x64 .f32) (s0 : FVec Ideal S2048x64 .bf16) (r : Fin 512) (j : Fin 2048) :
    k0_pay3 (F := Ideal) x0 s0 (ix2 r j) = weightMul (blockRow x0 r) (matOf s0) j := by
  have hsum : shapeCast S512x1 (multiReduction .add [1] S512 (numBlk x0 s0) 0x00000000#32 reduces_S512x2048_S512 (.inl rfl) rfl)
      shapeCasts_S512_S512x1 (ix2 r (0 : Fin 1)) = rowSum (blockRow x0 r) (matOf s0) :=
    (Cert.LibRowSums.laneSum_apply (numBlk x0 s0) 0x00000000#32 reduces_S512x2048_S512 (.inl rfl) rfl
      shapeCasts_S512_S512x1 r (0 : Fin 1)).trans (Finset.sum_congr rfl fun k _ => numBlk_apply x0 s0 r k)
  rw [pay3_eq]
  show numBlk x0 s0 (ix2 r j) * broadcastTo S512x2048 _ broadcasts_S512x1_S512x2048 (ix2 r j) = _
  rw [Cert.LibColumns.broadcastTo_a1_ab_apply, numBlk_apply]
  unfold weightMul
  refine congrArg (num (blockRow x0 r) (matOf s0) j * ·) ?_
  exact congrArg (fun s => Ideal.div (Ideal.ofBits .f32 0x3F800000#32) (s + epsW)) hsum

/-- The stored weights block carries a leading unit axis. -/
theorem pay4_apply (x0 : FVec Ideal S1x512x64 .f32) (s0 : FVec Ideal S2048x64 .bf16) (r : Fin 512) (j : Fin 2048) :
    k0_pay4 (F := Ideal) x0 s0 (ix3 (0 : Fin 1) r j) = weightMul (blockRow x0 r) (matOf s0) j := by
  unfold k0_pay4
  refine (shapeCast_ab_1ab_apply (k0_pay3 (F := Ideal) x0 s0) _ (0 : Fin 1) r j).trans ?_
  exact pay3_apply x0 s0 r j

/-- Entry (r, d) of the stored outputs block: the row's weights applied to the values. -/
theorem pay5_apply (x0 : FVec Ideal S1x512x64 .f32) (s0 s1 : FVec Ideal S2048x64 .bf16) (r : Fin 512) (d : Fin 64) :
    k0_pay5 (F := Ideal) x0 s0 s1 (ix3 (0 : Fin 1) r d) = outMul (blockRow x0 r) (matOf s0) (matOf s1) d := by
  unfold k0_pay5
  refine (shapeCast_ab_1ab_apply _ _ (0 : Fin 1) r d).trans ?_
  refine (Cert.LibMatmul.plain_matmul_zero_apply (A := 512) (K := 2048) (B := 64) none
    (truncf .bf16 (k0_pay3 (F := Ideal) x0 s0) bitsLt_bf16_f32) s1 r d).trans ?_
  unfold outMul matOf
  refine Finset.sum_congr rfl fun j _ => ?_
  refine congrArg (· * s1 (ix2 j d)) ?_
  exact pay3_apply x0 s0 r j

end Cert.QuadAttn

end
-- ==== Proof.Arrays.lean ====
/-
  The two arrays the kernel's grid leaves behind, as whole-array functions of the three arrays it reads.

  Point t writes back rows (t % 4) · 512 … + 511 of head t / 4 of each result array. What it writes is the step's value
  of those query rows against the head's keys and values, so entry (g, r, ·) of a result array is the row-wise
  specification of query row r of head g against head g's keys and values, whichever point wrote it. The 128 blocks
  tile both arrays (the point that covers row r of head g is 4 · g + r / 512), so each array ends holding that function
  everywhere.
-/
import proofs.«114776_j47691316855186_2_alg».proof.Proof.Points
import proofs.«114776_j47691316855186_2_alg».proof.Proof.Payloads
import Idealize.ShloMosaic.Lib.Pipeline.Value

open scoped BigOperators

noncomputable section

namespace Cert.QuadAttn

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- Query row `r` of head `g`, and head `g`'s matrix, of a `[32, 2048, 64]` array. -/
def headRow (X : S32x2048x64.Idx → EReal) (g : Fin 32) (r : Fin 2048) : Row := fun d => X (ix3 g r d)
def headMat (X : S32x2048x64.Idx → EReal) (g : Fin 32) : Mat := fun j d => X (ix3 g j d)

/-- The weights array: entry (g, r, j) is key j's weight for query row r of head g. -/
def weightsArr (X0 X1 : S32x2048x64.Idx → EReal) : S32x2048x2048.Idx → EReal := fun i =>
  weightMul (headRow X0 ⟨(i 0).val, (i 0).isLt⟩ ⟨(i 1).val, (i 1).isLt⟩) (headMat X1 ⟨(i 0).val, (i 0).isLt⟩)
    ⟨(i 2).val, (i 2).isLt⟩

/-- The outputs array: entry (g, r, d) is feature d of the output for query row r of head g. -/
def outsArr (X0 X1 X2 : S32x2048x64.Idx → EReal) : S32x2048x64.Idx → EReal := fun i =>
  outMul (headRow X0 ⟨(i 0).val, (i 0).isLt⟩ ⟨(i 1).val, (i 1).isLt⟩) (headMat X1 ⟨(i 0).val, (i 0).isLt⟩)
    (headMat X2 ⟨(i 0).val, (i 0).isLt⟩) ⟨(i 2).val, (i 2).isLt⟩

theorem weightsArr_apply (X0 X1 : S32x2048x64.Idx → EReal) (g : Fin 32) (r j : Fin 2048) :
    weightsArr X0 X1 (ix3 g r j) = weightMul (headRow X0 g r) (headMat X1 g) j := rfl

theorem outsArr_apply (X0 X1 X2 : S32x2048x64.Idx → EReal) (g : Fin 32) (r : Fin 2048) (d : Fin 64) :
    outsArr X0 X1 X2 (ix3 g r d) = outMul (headRow X0 g r) (headMat X1 g) (headMat X2 g) d := rfl

/-- The kept buffers, as matrices, are the head's slices of the key and value arrays. -/
theorem matOf_keptK (c : Dev nD) (g : Fin 32) : matOf (keptK m c g) = headMat (V m c main_v1) g := by
  funext j d
  unfold matOf keptK
  exact pay1_apply (headBlk (V m c main_v1) g) j d

theorem matOf_keptV (c : Dev nD) (g : Fin 32) : matOf (keptV m c g) = headMat (V m c main_v2) g := by
  funext j d
  unfold matOf keptV
  exact pay2_apply (headBlk (V m c main_v2) g) j d

/-- Row `r` of a query block is row `b · 512 + r` of the head. -/
theorem blockRow_queryBlk (X : S32x2048x64.Idx → EReal) (g : Fin 32) (b : Fin 4) (r : Fin 512) :
    blockRow (queryBlk X g b) r = headRow X g ⟨b.val * 512 + r.val, qrow_lt b _ r.isLt⟩ := rfl

/-- Every index of a `[1, a, b]` block is `(0, r, k)`. -/
theorem forall_unit_block {a b : ℕ} {P : (⟨3, ![1, a, b]⟩ : Shape).Idx → Prop}
    (h : ∀ (r : Fin a) (k : Fin b), P (ix3 (0 : Fin 1) r k)) (y : (⟨3, ![1, a, b]⟩ : Shape).Idx) : P y := by
  have e : y = ix3 (0 : Fin 1) (y 1) (y 2) := by
    funext ax
    match ax with
    | ⟨0, _⟩ =>
      apply Fin.ext
      show (y 0).val = 0
      exact Nat.lt_one_iff.mp (y 0).isLt
    | ⟨1, _⟩ => rfl
    | ⟨2, _⟩ => rfl
  rw [e]
  exact h _ _

/-! ## The outputs array (window 3) -/

/-- Where an entry of point t's outputs block sits in the array. -/
theorem emb3 (t : Fin cfg0.N) (r : Fin 512) (d : Fin 64) :
    ((cfg0.win 3).blk t).view.emb (ix3 (0 : Fin 1) r d)
      = ix3 (headOf t) ⟨(qblkOf t).val * 512 + r.val, qrow_lt _ _ r.isLt⟩ d := by
  obtain ⟨-, -, -, ⟨e0, e1, e2⟩, -⟩ := idx_facts t
  funext a
  apply Fin.ext
  match a with
  | ⟨0, _⟩ => show win0_3.index t (0 : Fin 3) * 1 + 1 * 0 = t.val / 4; omega
  | ⟨1, _⟩ => show win0_3.index t (1 : Fin 3) * 512 + 1 * r.val = t.val % 4 * 512 + r.val; omega
  | ⟨2, _⟩ => show win0_3.index t (2 : Fin 3) * 64 + 1 * d.val = d.val; omega

/-- What point t writes back to the outputs array is its block of `outsArr`. -/
theorem flushed3_eq (c : Dev nD) (t : Fin cfg0.N) :
    (dats m 0 c).flushed 3 t
      = ((cfg0.win 3).blk t).view.read (Elt Ideal) (outsArr (V m c main_v0) (V m c main_v1) (V m c main_v2)) := by
  show (cfg0.win 3).cut (grid0.coords t) ((dats m 0 c).after 3 t) = _
  rw [after0_3, outs_at m c t]
  refine funext fun y => forall_unit_block (P := fun y =>
    (cfg0.win 3).cut (grid0.coords t) (k0_pay5 (iblk m c 0 t) (keptK m c (headOf t)) (keptV m c (headOf t))) y
      = ((cfg0.win 3).blk t).view.read (Elt Ideal) (outsArr (V m c main_v0) (V m c main_v1) (V m c main_v2)) y) ?_ y
  intro r d
  rw [View.read_apply, emb3 t r d, outsArr_apply]
  refine (pay5_apply (iblk m c 0 t) (keptK m c (headOf t)) (keptV m c (headOf t)) r d).trans ?_
  rw [matOf_keptK, matOf_keptV, iblk0_eq m c t, blockRow_queryBlk, cast_eq]

theorem mem_blk3 (t : Fin cfg0.N) (i : S32x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3_0).slice (win0_3.rect t)).set ↔ _
  rw [View.set_slice_whole, Rect.mem_set_unit]
  exact Iff.rfl

/-- Every entry of the outputs array is in some point's block. -/
theorem cover3 (i : S32x2048x64.Idx) :
    ∃ t : Fin cfg0.N, (cfg0.win 3).flush t = true ∧ i ∈ ((cfg0.win 3).blk t).view.set := by
  have hN : cfg0.N = 128 := N_0
  have h0 : (i 0).val < 32 := (i 0).isLt
  have h1 : (i 1).val < 2048 := (i 1).isLt
  have h2 : (i 2).val < 64 := (i 2).isLt
  have ht : (i 0).val * 4 + (i 1).val / 512 < cfg0.N := by omega
  obtain ⟨-, -, -, ⟨e0, e1, e2⟩, -⟩ := idx_facts ⟨(i 0).val * 4 + (i 1).val / 512, ht⟩
  refine ⟨⟨(i 0).val * 4 + (i 1).val / 512, ht⟩, flush0_3 _, ?_⟩
  rw [mem_blk3]
  intro a
  match a with
  | ⟨0, _⟩ =>
    show win0_3.index _ (0 : Fin 3) * 1 ≤ (i 0).val ∧ (i 0).val < win0_3.index _ (0 : Fin 3) * 1 + 1
    rw [e0]; show ((i 0).val * 4 + (i 1).val / 512) / 4 * 1 ≤ (i 0).val ∧ (i 0).val < ((i 0).val * 4 + (i 1).val / 512) / 4 * 1 + 1
    omega
  | ⟨1, _⟩ =>
    show win0_3.index _ (1 : Fin 3) * 512 ≤ (i 1).val ∧ (i 1).val < win0_3.index _ (1 : Fin 3) * 512 + 512
    rw [e1]; show ((i 0).val * 4 + (i 1).val / 512) % 4 * 512 ≤ (i 1).val ∧ (i 1).val < ((i 0).val * 4 + (i 1).val / 512) % 4 * 512 + 512
    omega
  | ⟨2, _⟩ =>
    show win0_3.index _ (2 : Fin 3) * 64 ≤ (i 2).val ∧ (i 2).val < win0_3.index _ (2 : Fin 3) * 64 + 64
    rw [e2]; omega

/-- The outputs array after the grid. -/
theorem final3 (c : Dev nD) :
    (dats m 0 c).arrAt 3 cfg0.N = outsArr (V m c main_v0) (V m c main_v1) (V m c main_v2) :=
  (dats m 0 c).arrAt_eq_of_cover 3 _ (fun t _ => flushed3_eq m c t) cover3

/-! ## The weights array (window 4) -/

theorem emb4 (t : Fin cfg0.N) (r : Fin 512) (j : Fin 2048) :
    ((cfg0.win 4).blk t).view.emb (ix3 (0 : Fin 1) r j)
      = ix3 (headOf t) ⟨(qblkOf t).val * 512 + r.val, qrow_lt _ _ r.isLt⟩ j := by
  obtain ⟨-, -, -, -, ⟨e0, e1, e2⟩⟩ := idx_facts t
  funext a
  apply Fin.ext
  match a with
  | ⟨0, _⟩ => show win0_4.index t (0 : Fin 3) * 1 + 1 * 0 = t.val / 4; omega
  | ⟨1, _⟩ => show win0_4.index t (1 : Fin 3) * 512 + 1 * r.val = t.val % 4 * 512 + r.val; omega
  | ⟨2, _⟩ => show win0_4.index t (2 : Fin 3) * 2048 + 1 * j.val = j.val; omega

/-- What point t writes back to the weights array is its block of `weightsArr`. -/
theorem flushed4_eq (c : Dev nD) (t : Fin cfg0.N) :
    (dats m 0 c).flushed 4 t
      = ((cfg0.win 4).blk t).view.read (Elt Ideal) (weightsArr (V m c main_v0) (V m c main_v1)) := by
  show (cfg0.win 4).cut (grid0.coords t) ((dats m 0 c).after 4 t) = _
  rw [after0_4, weights_at m c t]
  refine funext fun y => forall_unit_block (P := fun y =>
    (cfg0.win 4).cut (grid0.coords t) (k0_pay4 (iblk m c 0 t) (keptK m c (headOf t))) y
      = ((cfg0.win 4).blk t).view.read (Elt Ideal) (weightsArr (V m c main_v0) (V m c main_v1)) y) ?_ y
  intro r j
  rw [View.read_apply, emb4 t r j, weightsArr_apply]
  refine (pay4_apply (iblk m c 0 t) (keptK m c (headOf t)) r j).trans ?_
  rw [matOf_keptK, iblk0_eq m c t, blockRow_queryBlk, cast_eq]

theorem mem_blk4 (t : Fin cfg0.N) (i : S32x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v3_1).slice (win0_4.rect t)).set ↔ _
  rw [View.set_slice_whole, Rect.mem_set_unit]
  exact Iff.rfl

theorem cover4 (i : S32x2048x2048.Idx) :
    ∃ t : Fin cfg0.N, (cfg0.win 4).flush t = true ∧ i ∈ ((cfg0.win 4).blk t).view.set := by
  have hN : cfg0.N = 128 := N_0
  have h0 : (i 0).val < 32 := (i 0).isLt
  have h1 : (i 1).val < 2048 := (i 1).isLt
  have h2 : (i 2).val < 2048 := (i 2).isLt
  have ht : (i 0).val * 4 + (i 1).val / 512 < cfg0.N := by omega
  obtain ⟨-, -, -, -, ⟨e0, e1, e2⟩⟩ := idx_facts ⟨(i 0).val * 4 + (i 1).val / 512, ht⟩
  refine ⟨⟨(i 0).val * 4 + (i 1).val / 512, ht⟩, flush0_4 _, ?_⟩
  rw [mem_blk4]
  intro a
  match a with
  | ⟨0, _⟩ =>
    show win0_4.index _ (0 : Fin 3) * 1 ≤ (i 0).val ∧ (i 0).val < win0_4.index _ (0 : Fin 3) * 1 + 1
    rw [e0]; show ((i 0).val * 4 + (i 1).val / 512) / 4 * 1 ≤ (i 0).val ∧ (i 0).val < ((i 0).val * 4 + (i 1).val / 512) / 4 * 1 + 1
    omega
  | ⟨1, _⟩ =>
    show win0_4.index _ (1 : Fin 3) * 512 ≤ (i 1).val ∧ (i 1).val < win0_4.index _ (1 : Fin 3) * 512 + 512
    rw [e1]; show ((i 0).val * 4 + (i 1).val / 512) % 4 * 512 ≤ (i 1).val ∧ (i 1).val < ((i 0).val * 4 + (i 1).val / 512) % 4 * 512 + 512
    omega
  | ⟨2, _⟩ =>
    show win0_4.index _ (2 : Fin 3) * 2048 ≤ (i 2).val ∧ (i 2).val < win0_4.index _ (2 : Fin 3) * 2048 + 2048
    rw [e2]; omega

/-- The weights array after the grid. -/
theorem final4 (c : Dev nD) :
    (dats m 0 c).arrAt 4 cfg0.N = weightsArr (V m c main_v0) (V m c main_v1) :=
  (dats m 0 c).arrAt_eq_of_cover 4 _ (fun t _ => flushed4_eq m c t) cover4

end Cert.QuadAttn

end
-- ==== Proof.LibHeadReshape.lean ====
/-
  Merging and splitting the two leading axes of a rank-four array, read at an index.

  A reshape keeps the row-major position. Merging the leading axes `[a, b]` of an `[a, b, c, d]` array into one axis
  of extent `a · b` sends `(p, q, r, s)` to `(p · b + q, r, s)`; splitting that axis again is the inverse. Both are stated
  with the merged coordinate as a separate variable and the equation `g = p · b + q` as a hypothesis, so that the merged
  extent may be written as a literal.
-/
import Idealize.ShloMosaic.Lib.ValueLayout

namespace Cert.LibHeadReshape

open Idealize.ShloMosaic Idealize.ShloMosaic.ValueIdx

variable {α : Type}

/-- An `[a, b, c, d]` array cast to `[n, c, d]` reads, at `(g, r, s)` with `g = p · b + q`, the operand at
    `(p, q, r, s)`. -/
theorem shapeCast_abcd_ncd_apply {a b c d n : ℕ} (x : (⟨4, ![a, b, c, d]⟩ : Shape).Idx → α)
    (h : (⟨4, ![a, b, c, d]⟩ : Shape).ShapeCasts ⟨3, ![n, c, d]⟩)
    (p : Fin a) (q : Fin b) (r : Fin c) (s : Fin d) (g : Fin n) (hg : g.val = p.val * b + q.val) :
    shapeCast ⟨3, ![n, c, d]⟩ x h (ix3 g r s) = x (ix4 p q r s) :=
  shapeCast_apply x h _ _ (by
    rw [Shape.rowMajor_val_four, Shape.rowMajor_val_three]
    show ((p.val * b + q.val) * c + r.val) * d + s.val = (g.val * c + r.val) * d + s.val
    rw [hg])

/-- An `[n, c, d]` array cast to `[a, b, c, d]` reads, at `(p, q, r, s)`, the operand at `(g, r, s)` with
    `g = p · b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩)
    (p : Fin a) (q : Fin b) (r : Fin c) (s : Fin d) (g : Fin n) (hg : g.val = p.val * b + q.val) :
    shapeCast ⟨4, ![a, b, c, d]⟩ x h (ix4 p q r s) = x (ix3 g r s) :=
  shapeCast_apply x h _ _ (by
    rw [Shape.rowMajor_val_four, Shape.rowMajor_val_three]
    show (g.val * c + r.val) * d + s.val = ((p.val * b + q.val) * c + r.val) * d + s.val
    rw [hg])

end Cert.LibHeadReshape
-- ==== Proof.KernelRun.lean ====
/-
  The kernel program's run, read: its two results as functions of its three arguments.

  Before the grid the program merges batch and head of q, k and v into one axis of 32 heads; after the grid it splits
  that axis of the two result arrays again. A reshape keeps the row-major position, so head 16 · b + h of a merged
  array is head h of batch b of the argument, and entry (b, h, r, ·) of a split result is entry (16 · b + h, r, ·) of the
  array the grid left. With the grid's arrays known in closed form this gives each result entry as the row-wise
  specification of q[b, h, r, ·] against k[b, h, ·, ·] and v[b, h, ·, ·], in the spelling that multiplies by the
  normaliser's reciprocal — which is the quotient spelling, the normaliser not being zero.
-/
import proofs.«114776_j47691316855186_2_alg».proof.Proof.Arrays
import proofs.«114776_j47691316855186_2_alg».proof.Proof.LibHeadReshape
import Idealize.ShloMosaic.Lib.StableHlo.Run

noncomputable section

namespace Cert.QuadAttn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## Before the grid: the three arrays it reads are the arguments with batch and head merged -/

theorem V_main_v0 (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results
  rfl

theorem V_main_v1 (c : Dev nD) : (V m c main_v1 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v1) = _
  after_results
  rfl

theorem V_main_v2 (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results
  rfl

/-! ## Merged heads against batches and heads -/

theorem head_idx (b : Fin 2) (h : Fin 16) : b.val * 16 + h.val < 32 := by
  have := b.isLt
  have := h.isLt
  omega

/-- Query row r of merged head 16 · b + h is query row r of head h of batch b. -/
theorem headRow_merge (Q : Arg4.Idx → EReal) (hc : Arg4.ShapeCasts S32x2048x64) (b : Fin 2) (h : Fin 16) (r : Fin 2048) :
    headRow (shapeCast S32x2048x64 Q hc) ⟨b.val * 16 + h.val, head_idx b h⟩ r = argRow Q b h r :=
  funext fun d => Cert.LibHeadReshape.shapeCast_abcd_ncd_apply Q hc b h r d ⟨b.val * 16 + h.val, head_idx b h⟩ rfl

/-- Merged head 16 · b + h is head h of batch b. -/
theorem headMat_merge (K : Arg4.Idx → EReal) (hc : Arg4.ShapeCasts S32x2048x64) (b : Fin 2) (h : Fin 16) :
    headMat (shapeCast S32x2048x64 K hc) ⟨b.val * 16 + h.val, head_idx b h⟩ = argMat K b h :=
  funext fun j => funext fun d =>
    Cert.LibHeadReshape.shapeCast_abcd_ncd_apply K hc b h j d ⟨b.val * 16 + h.val, head_idx b h⟩ rfl

/-- The weights array over merged heads, split again, is the weights over batches and heads. -/
theorem weights_split (Q K : Arg4.Idx → EReal) (hc : Arg4.ShapeCasts S32x2048x64) (hs : S32x2048x2048.ShapeCasts Wts4) :
    shapeCast Wts4 (weightsArr (shapeCast S32x2048x64 Q hc) (shapeCast S32x2048x64 K hc)) hs = weights4 Q K :=
  funext fun i => forall_ix4
    (P := fun i => shapeCast Wts4 (weightsArr (shapeCast S32x2048x64 Q hc) (shapeCast S32x2048x64 K hc)) hs i = weights4 Q K i)
    (fun b h r j => by
      rw [Cert.LibHeadReshape.shapeCast_ncd_abcd_apply _ hs b h r j ⟨b.val * 16 + h.val, head_idx b h⟩ rfl,
        weightsArr_apply, headRow_merge, headMat_merge, weightMul_eq_weightDiv, weights4_apply]) i

/-- The outputs array over merged heads, split again, is the outputs over batches and heads. -/
theorem outs_split (Q K Vv : Arg4.Idx → EReal) (hc : Arg4.ShapeCasts S32x2048x64) (hs : S32x2048x64.ShapeCasts Arg4) :
    shapeCast Arg4 (outsArr (shapeCast S32x2048x64 Q hc) (shapeCast S32x2048x64 K hc) (shapeCast S32x2048x64 Vv hc)) hs
      = outs4 Q K Vv :=
  funext fun i => forall_ix4
    (P := fun i => shapeCast Arg4 (outsArr (shapeCast S32x2048x64 Q hc) (shapeCast S32x2048x64 K hc)
      (shapeCast S32x2048x64 Vv hc)) hs i = outs4 Q K Vv i)
    (fun b h r d => by
      rw [Cert.LibHeadReshape.shapeCast_ncd_abcd_apply _ hs b h r d ⟨b.val * 16 + h.val, head_idx b h⟩ rfl,
        outsArr_apply, headRow_merge, headMat_merge, headMat_merge, outMul_eq_outDiv, outs4_apply]) i

/-! ## After the grid: each result is the array the grid left, its merged axis split -/

theorem tail_v4 (c : Dev nD) :
    Pipeline.afterTail₀ cfgs (dats m) 0 (V0 m) [hostOps1] c main_v4
      = shapeCast S2x16x2048x64 ((dats m 0 c).arrAt 3 cfg0.N) shapeCasts_S32x2048x64_S2x16x2048x64 := by
  have hw : Pipeline.withArrays (cfgs 0).spec c (V0 m c) (fun w => (dats m 0 c).arrAt w (cfgs 0).N)
      (Proc.devRef .tc main_v3_0) = (dats m 0 c).arrAt 3 cfg0.N :=
    Pipeline.withArrays_arr spec0 launch0.win.arr_inj c _ _ 3
  unfold Pipeline.afterTail₀
  show StableHlo.after hostOps1 _ (Proc.devRef .tc main_v4) = _
  after_results
  exact congrArg (fun A => shapeCast S2x16x2048x64 A shapeCasts_S32x2048x64_S2x16x2048x64) hw

theorem tail_v5 (c : Dev nD) :
    Pipeline.afterTail₀ cfgs (dats m) 0 (V0 m) [hostOps1] c main_v5
      = shapeCast S2x16x2048x2048 ((dats m 0 c).arrAt 4 cfg0.N) shapeCasts_S32x2048x2048_S2x16x2048x2048 := by
  have hw : Pipeline.withArrays (cfgs 0).spec c (V0 m c) (fun w => (dats m 0 c).arrAt w (cfgs 0).N)
      (Proc.devRef .tc main_v3_1) = (dats m 0 c).arrAt 4 cfg0.N :=
    Pipeline.withArrays_arr spec0 launch0.win.arr_inj c _ _ 4
  unfold Pipeline.afterTail₀
  show StableHlo.after hostOps1 _ (Proc.devRef .tc main_v5) = _
  after_results
  exact congrArg (fun A => shapeCast S2x16x2048x2048 A shapeCasts_S32x2048x2048_S2x16x2048x2048) hw

/-- The outputs result, as a function of the arguments. -/
theorem result_outs (c : Dev nD) :
    Pipeline.afterTail₀ cfgs (dats m) 0 (V0 m) [hostOps1] c main_v4
      = outs4 (m ((c : Thread nD τ).loc main_arg0)) (m ((c : Thread nD τ).loc main_arg1)) (m ((c : Thread nD τ).loc main_arg2)) := by
  rw [tail_v4, final3, V_main_v0, V_main_v1, V_main_v2]
  exact outs_split _ _ _ _ _

/-- The weights result, as a function of the arguments. -/
theorem result_weights (c : Dev nD) :
    Pipeline.afterTail₀ cfgs (dats m) 0 (V0 m) [hostOps1] c main_v5
      = weights4 (m ((c : Thread nD τ).loc main_arg0)) (m ((c : Thread nD τ).loc main_arg1)) := by
  rw [tail_v5, final4, V_main_v0, V_main_v1]
  exact weights_split _ _ _ _

/-! ## The run -/

/-- Every weakly fair execution of the kernel program ends with its two results at the specification of its
    arguments, and the arguments unchanged. -/
theorem run : θ_run defs (onTc (τ := τ) (main (F := Ideal))) ⟨m, fun _ => 0, ρ⟩ (fun r => ∀ c : Dev nD,
      r.2.mem ((c.tc : Thread nD τ).loc main_v4)
        = outs4 (m ((c.tc : Thread nD τ).loc main_arg0)) (m ((c.tc : Thread nD τ).loc main_arg1)) (m ((c.tc : Thread nD τ).loc main_arg2))
      ∧ r.2.mem ((c.tc : Thread nD τ).loc main_v5)
        = weights4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v4 (Pipeline.mem_restRefs_of main_v4 (by decide) (by decide))).trans (result_outs m c),
      ((h c).2 main_v5 (Pipeline.mem_restRefs_of main_v5 (by decide) (by decide))).trans (result_weights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.QuadAttn

end
-- ==== Proof.RefSpec.lean ====
/-
  The reference program, read at an entry, is the specification in its quotient spelling.

  The reference keeps the four axes (batch, head, position, feature). For batch b and head h its score of query
  position r against key position j contracts the feature axis of q[b, h, r, ·] and k[b, h, j, ·]; the numerators, the
  row sum started from zero, the shift by ε and the quotient follow entry by entry, and the outputs contract the key
  position against v[b, h, ·, d]. So entry (b, h, r, j) of its weights and entry (b, h, r, d) of its outputs are the
  row-wise specification of the query row q[b, h, r, ·] against the matrices k[b, h, ·, ·] and v[b, h, ·, ·].
-/
import proofs.«114776_j47691316855186_2_alg».proof.Proof.Gen.ReferenceIdeal.Read
import proofs.«114776_j47691316855186_2_alg».proof.Proof.HeadSpec

open scoped BigOperators

noncomputable section

namespace Cert.QuadAttn

open Idealize.ShloMosaic Idealize.ShloMosaic.ValueIdx
open Cert.ReferenceIdeal Cert.ReferenceIdeal.Gen Cert.ReferenceIdeal.Read

/-- The reference's numerators. -/
theorem ref_num (x0 x1 : S2x16x2048x64.Idx → EReal) (b : Fin 2) (h : Fin 16) (r j : Fin 2048) :
    val_main_v5 (F := Ideal) x0 x1 (ix4 b h r j) = num (argRow x0 b h r) (argMat x1 b h) j := by
  have el : ∀ k, lidx_main_v0 (ix4 b h r j) k = ix4 b h r k := fun k => funext fun a => Fin.ext (by match a with | ⟨0, _⟩ => rfl | ⟨1, _⟩ => rfl | ⟨2, _⟩ => rfl | ⟨3, _⟩ => rfl)
  have er : ∀ k, ridx_main_v0 (ix4 b h r j) k = ix4 b h j k := fun k => funext fun a => Fin.ext (by match a with | ⟨0, _⟩ => rfl | ⟨1, _⟩ => rfl | ⟨2, _⟩ => rfl | ⟨3, _⟩ => rfl)
  rw [val_main_v5_apply, val_main_v4_apply, val_main_v2_apply, val_main_v0_apply, val_main_v1_apply,
    val_main_cst_apply, val_main_v3_apply, val_main_cst_0_apply]
  simp only [el, er]
  rfl

/-- The reference's weights: the quotient by the row sum from zero, shifted by ε. -/
theorem ref_weights (x0 x1 : S2x16x2048x64.Idx → EReal) (b : Fin 2) (h : Fin 16) (r j : Fin 2048) :
    val_main_v11 (F := Ideal) x0 x1 (ix4 b h r j) = weightDiv (argRow x0 b h r) (argMat x1 b h) j := by
  have e6 : ∀ k, idx_main_v6 (idx_main_v7 (idx_main_v10 (ix4 b h r j))) k = ix4 b h r k :=
    fun k => funext fun a => Fin.ext (by match a with | ⟨0, _⟩ => rfl | ⟨1, _⟩ => rfl | ⟨2, _⟩ => rfl | ⟨3, _⟩ => rfl)
  rw [val_main_v11_apply, val_main_v10_apply, val_main_v9_apply, val_main_v7_apply, val_main_v8_apply,
    val_main_cst_2_apply, val_main_v6_apply, val_main_cst_1_apply, ref_num]
  simp only [e6, ref_num]
  rfl

/-- The reference's outputs: the weights applied to the head's values. -/
theorem ref_outs (x0 x1 x2 : S2x16x2048x64.Idx → EReal) (b : Fin 2) (h : Fin 16) (r : Fin 2048) (d : Fin 64) :
    val_main_v12 (F := Ideal) x0 x1 x2 (ix4 b h r d) = outDiv (argRow x0 b h r) (argMat x1 b h) (argMat x2 b h) d := by
  have el : ∀ k, lidx_main_v12 (ix4 b h r d) k = ix4 b h r k := fun k => funext fun a => Fin.ext (by match a with | ⟨0, _⟩ => rfl | ⟨1, _⟩ => rfl | ⟨2, _⟩ => rfl | ⟨3, _⟩ => rfl)
  have er : ∀ k, ridx_main_v12 (ix4 b h r d) k = ix4 b h k d := fun k => funext fun a => Fin.ext (by match a with | ⟨0, _⟩ => rfl | ⟨1, _⟩ => rfl | ⟨2, _⟩ => rfl | ⟨3, _⟩ => rfl)
  rw [val_main_v12_apply]
  simp only [el, er, ref_weights]
  rfl

/-- The reference's two results, as whole arrays. -/
theorem ref_weights_eq (x0 x1 : S2x16x2048x64.Idx → EReal) : val_main_v11 (F := Ideal) x0 x1 = weights4 x0 x1 :=
  funext fun i => forall_ix4 (P := fun i => val_main_v11 (F := Ideal) x0 x1 i = weights4 x0 x1 i)
    (fun b h r j => ref_weights x0 x1 b h r j) i

theorem ref_outs_eq (x0 x1 x2 : S2x16x2048x64.Idx → EReal) : val_main_v12 (F := Ideal) x0 x1 x2 = outs4 x0 x1 x2 :=
  funext fun i => forall_ix4 (P := fun i => val_main_v12 (F := Ideal) x0 x1 x2 i = outs4 x0 x1 x2 i)
    (fun b h r d => ref_outs x0 x1 x2 b h r d) i

end Cert.QuadAttn

end
-- ==== Proof.lean ====
/-
  Quadratic-kernel attention: a tiled kernel against its plain reference, equal over the extended reals.

  Both programs take q, k, v of shape [2, 16, 2048, 64] and return the attention weights [2, 16, 2048, 2048] and the
  outputs [2, 16, 2048, 64]. For each batch and head, the score of query position r against key position j is
  Σ_d q[r, d] · k[j, d]; the weight numerator is (score / 8 + 3)²; a row's normaliser is the sum of its numerators plus
  a small positive ε; the weight is the numerator over the normaliser; and the output row is the weights applied to v.

  The kernel merges batch and head, walks 32 heads by 4 blocks of 512 query rows, keeps the head's keys and values in
  two buffers it fills at the head's first block, multiplies by the reciprocal of the normaliser, and splits the merged
  axis again. The reference contracts the four-axis arrays directly, starts its row sum from zero, and divides. Over
  the extended reals a change of float format is the identity and sums carry no order, so the only difference left is
  the product with the reciprocal against the quotient — and these agree because the normaliser, a sum of squares plus
  a positive constant, is never zero (Proof/HeadSpec.lean). No finiteness of the inputs is used.

  The modules: Proof/HeadSpec.lean (the specification for one query row, and the law), Proof/Payloads.lean (one
  kernel step read at an entry), Proof/Pieces.lean and Proof/Points.lean (what each grid point leaves, by induction
  along the points), Proof/Arrays.lean (the two arrays the grid leaves, in closed form), Proof/KernelRun.lean (the
  reshapes around the grid and the kernel's run), Proof/RefSpec.lean (the reference read at an entry); the frames of the
  two kernel programs and the reference's run are the generated modules'.
-/
import proofs.«114776_j47691316855186_2_alg».proof.Defs
import proofs.«114776_j47691316855186_2_alg».proof.Proof.Gen.Kernel
import proofs.«114776_j47691316855186_2_alg».proof.Proof.Gen.Kernel.Frame
import proofs.«114776_j47691316855186_2_alg».proof.Proof.Gen.KernelIdeal
import proofs.«114776_j47691316855186_2_alg».proof.Proof.Gen.KernelIdeal.Frame
import proofs.«114776_j47691316855186_2_alg».proof.Proof.Gen.ReferenceIdeal
import proofs.«114776_j47691316855186_2_alg».proof.Proof.Gen.ReferenceIdeal.Run
import proofs.«114776_j47691316855186_2_alg».proof.Proof.Gen.ReferenceIdeal.Read
import proofs.«114776_j47691316855186_2_alg».proof.Proof.Gen.Pre_finite_inputs
import proofs.«114776_j47691316855186_2_alg».proof.Proof.KernelRun
import proofs.«114776_j47691316855186_2_alg».proof.Proof.RefSpec

noncomputable section

namespace Cert.Proof

open Idealize.ShloMosaic Idealize.SL.Sem

/-- The printed kernel runs, faults nowhere and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories that agree on q, k and v, both programs end with the outputs and the weights of the specification:
    the kernel by its run read through the grid (the reciprocal spelling, equal to the quotient spelling), the
    reference by its operations read at an entry. -/
theorem algebraic : Cert.algebraic_KernelIdeal_ReferenceIdeal := by
  intro m ρ m' ρ' _ hagree
  refine ⟨fun c => Cert.QuadAttn.outs4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.QuadAttn.weights4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.QuadAttn.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v12_eq, Cert.QuadAttn.ref_outs_eq, (hagree c).1, (hagree c).2.1, (hagree c).2.2]
  · rw [Cert.ReferenceIdeal.Read.val_main_v11_eq, Cert.QuadAttn.ref_weights_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
